-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x512 : Shape := ⟨2, ![5000, 512]⟩
abbrev S5000x128 : Shape := ⟨2, ![5000, 128]⟩
abbrev S1700000x128 : Shape := ⟨2, ![1700000, 128]⟩
abbrev S1x128 : Shape := ⟨2, ![1, 128]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 90
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1x16, .f32⟩
  | .hbm, ⟨89, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩

abbrev nBuf : Space → Nat
  | .hbm => 138
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S100000x128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000, .i32⟩
  | 73 => ⟨S1x1600000, .i32⟩
  | 74 => ⟨S1600000, .i32⟩
  | 75 => ⟨S1700000, .i32⟩
  | 76 => ⟨S1x1600000, .i32⟩
  | 77 => ⟨S1600000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x512, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x16, .f32⟩
  | 7 => ⟨S1x16, .f32⟩
  | 8 => ⟨S100000x16, .f32⟩
  | 9 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.GcnSpec.lean ====
/-
  The network as one function of its eight arrays, for any float values (read on the extended reals by the proofs).

  A graph of 100000 nodes is given by 1600000 directed edges `(s, d)` (row 0 of `ei` the sources, row 1 the targets);
  every node also gets a loop `(v, v)`, 1700000 edges in all. With `deg d` the number of edges into `d`, an edge carries
  the weight `deg(s)^(-1/2) · deg(d)^(-1/2)` (`0` in place of `deg^(-1/2)` where `deg` is not positive). One layer maps node
  features `h` to `v ↦ (∑ over edges (s, v) of weight · h s) + b`; the network is
  `relu (layer (relu (layer (x · W₁) b₁) · W₂) b₂) · Wₒ + bₒ`.
  Each function below is spelt with the host operations the reference program applies, so that the reference's
  result is this term by unfolding, and stated once, so that a program computing the edge data once and one computing
  it per layer are read against the same term.
-/
import proofs.«107439_j21174188770104_1_alg».proof.Proof.Gen.ReferenceIdeal
import Idealize.ShloMosaic.PureOps.Ideal

noncomputable section

namespace Cert.GcnSpec

open Cert.ReferenceIdeal Cert.ReferenceIdeal.Gen Idealize.ShloMosaic

variable {F : FTy → Type} [FloatOps F]

/-- The edges' sources followed by the nodes themselves (the loops): 1700000 node numbers. -/
def srcIdx (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' targets followed by the nodes themselves. -/
def dstIdx (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node number counts from the end: `v + 100000` where `v < 0`. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The number of edges into each node: ones added up at the targets. -/
def degree (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 (dstIdx ei)) (broadcastInDim S1700000 ![] bcast_S_S1700000 (constant (F := F) S_ .f32 0x3F800000#32))

/-- `deg^(-1/2)` where the degree is positive, `0` elsewhere. -/
def invSqrtDegree (ei : (⟨S2x1600000, .i32⟩ : BufTy).Contents (Elt F)) : (⟨S100000, .f32⟩ : BufTy).Contents (Elt F) :=
  select (cmpf (F := F) .ogt (degree ei) (broadcastInDim S100000 ![] bcast_S_S100000 (constant (F := F) S_ .f32 0x00000000#32))) (Host.rsqrt (degree ei)) (broadcastInDim S100000 ![] bcast_S_S100000 (id (constant (F := F) S_ .f32 0x00000000#32)))

/-- An edge's weight: the product of `deg^(-1/2)` at its two ends. -/
def edgeNorm (ei : (⟨S2x1600000, .i32⟩ : BufTy).Contents (Elt F)) : (⟨S1700000, .f32⟩ : BufTy).Contents (Elt F) :=
  mulf (Host.gather gather_S100000_S1700000x1_S1700000_n_0_n_n_0_1_1 (invSqrtDegree ei) (broadcastInDim S1700000x1 ![0] bcast_S1700000_S1700000x1_0 (wrap (srcIdx ei)))) (Host.gather gather_S100000_S1700000x1_S1700000_n_0_n_n_0_1_1 (invSqrtDegree ei) (broadcastInDim S1700000x1 ![0] bcast_S1700000_S1700000x1_0 (wrap (dstIdx ei))))

/-- One layer's aggregation: every edge sends its source's row, weighted, to its target; the rows arriving at a
    node are added up, and the bias row is added to each node. -/
def aggregate (h : (⟨S100000x128, .f32⟩ : BufTy).Contents (Elt F)) (ei : (⟨S2x1600000, .i32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant (F := F) S_ .f32 0x00000000#32)) (broadcastInDim S1700000x1 ![0] bcast_S1700000_S1700000x1_0 (dstIdx ei)) (mulf (Host.gather gather_S100000x128_S1700000x1_S1700000x128_1_0_n_n_0_1_1128 h (broadcastInDim S1700000x1 ![0] bcast_S1700000_S1700000x1_0 (wrap (srcIdx ei)))) (broadcastInDim S1700000x128 ![0, 1] bcast_S1700000x1_S1700000x128_0_1 (broadcastInDim S1700000x1 ![0] bcast_S1700000_S1700000x1_0 (edgeNorm ei))))) (broadcastInDim S100000x128 ![0, 1] bcast_S1x128_S100000x128_0_1 (broadcastInDim S1x128 ![1] bcast_S128_S1x128_1 b))

/-- The rectifier: the entrywise maximum with zero. -/
def rectify (h : (⟨S100000x128, .f32⟩ : BufTy).Contents (Elt F)) : (⟨S100000x128, .f32⟩ : BufTy).Contents (Elt F) :=
  maximumf h (broadcastInDim S100000x128 ![] bcast_S_S100000x128 (constant (F := F) S_ .f32 0x00000000#32))

/-- The network. -/
def gcn (x : (⟨S100000x512, .f32⟩ : BufTy).Contents (Elt F)) (ei : (⟨S2x1600000, .i32⟩ : BufTy).Contents (Elt F)) (W1 : (⟨S512x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) (Wo : (⟨S128x16, .f32⟩ : BufTy).Contents (Elt F)) (bo : (⟨S16, .f32⟩ : BufTy).Contents (Elt F)) : (⟨S100000x16, .f32⟩ : BufTy).Contents (Elt F) :=
  addf (Host.dotGeneral dot_S100000x128_S128x16_S100000x16_1_0_0_1_n_n none
      (rectify (aggregate (Host.dotGeneral dot_S100000x128_S128x128_S100000x128_1_0_0_1_n_n none
        (rectify (aggregate (Host.dotGeneral dot_S100000x512_S512x128_S100000x128_1_0_0_1_n_n none x W1) ei b1)) W2) ei b2)) Wo)
    (broadcastInDim S100000x16 ![0, 1] bcast_S1x16_S100000x16_0_1 (broadcastInDim S1x16 ![1] bcast_S16_S1x16_1 bo))

end Cert.GcnSpec

end
-- ==== Proof.KernelHost.lean ====
/-
  The host stretches of the idealized kernel's @main, read as the network's functions.

  @main computes the edge data once (sources, targets, edge weights), then three times a dense kernel region followed
  by host operations. The generated frame names the buffer contents at each boundary (`W0 … W8`); here each buffer a
  later segment reads is identified with the specification's function of the launch arrays: the index vectors and the
  edge weights at region 0's entry, a layer's aggregation of the region's result after each of the first two regions,
  and the bias row before the third.
-/
import proofs.«107439_j21174188770104_1_alg».proof.Proof.Gen.KernelIdeal.Frame
import proofs.«107439_j21174188770104_1_alg».proof.Proof.GcnSpec
import Idealize.ShloMosaic.Lib.ValueLayout
import Idealize.ShloMosaic.Lib.ValueIdx
import Idealize.ShloMosaic.Lib.Pipeline.Value

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-- A buffer that no operation of a stretch writes keeps its contents over the stretch. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Region 0's entry: the edge data -/

/-- The sources-and-loops vector, as computed by the first stretch. -/
theorem W3_src (c : Dev nD) :
    W3 m ρ c (Proc.devRef .tc main_v5) = Cert.GcnSpec.srcIdx (m ((c : Thread nD τ).loc main_arg1)) :=
  calc W3 m ρ c (Proc.devRef .tc main_v5)
    _ = W2 m ρ c (Proc.devRef .tc main_v5) := by not_written hostOps0_2
    _ = W1 m ρ c (Proc.devRef .tc main_v5) := by not_written hostOps0_1
    _ = _ := by
      show StableHlo.after hostOps0 (W0 m ρ c) (Proc.devRef .tc main_v5) = _
      after_results
      rfl

/-- The targets-and-loops vector, as computed by the first stretch. -/
theorem W3_dst (c : Dev nD) :
    W3 m ρ c (Proc.devRef .tc main_v6) = Cert.GcnSpec.dstIdx (m ((c : Thread nD τ).loc main_arg1)) :=
  calc W3 m ρ c (Proc.devRef .tc main_v6)
    _ = W2 m ρ c (Proc.devRef .tc main_v6) := by not_written hostOps0_2
    _ = W1 m ρ c (Proc.devRef .tc main_v6) := by not_written hostOps0_1
    _ = _ := by
      show StableHlo.after hostOps0 (W0 m ρ c) (Proc.devRef .tc main_v6) = _
      after_results
      rfl

set_option maxHeartbeats 4000000 in
/-- The edge weights, as computed by the stretches before region 0 (degrees, their inverse square roots where
    positive, gathered at both ends of every edge and multiplied). -/
theorem W3_norm (c : Dev nD) :
    W3 m ρ c (Proc.devRef .tc main_v29) = Cert.GcnSpec.edgeNorm (m ((c : Thread nD τ).loc main_arg1)) := by
  show StableHlo.after hostOps0_2 (StableHlo.after hostOps0_1 (StableHlo.after hostOps0 (W0 m ρ c))) (Proc.devRef .tc main_v29) = _
  after_results_simp
  rfl

/-! ## The arguments and the edge data, carried through the fold (no segment writes them) -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by not_written hostOps0_2
    _ = W1 m ρ c (Proc.devRef .tc main_arg0) := by not_written hostOps0_1
    _ = W0 m ρ c (Proc.devRef .tc main_arg0) := by not_written hostOps0
    _ = _ := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = _ := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by not_written hostOps0_2
    _ = W1 m ρ c (Proc.devRef .tc main_arg3) := by not_written hostOps0_1
    _ = W0 m ρ c (Proc.devRef .tc main_arg3) := by not_written hostOps0
    _ = _ := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by not_written hostOps0_2
    _ = W1 m ρ c (Proc.devRef .tc main_arg4) := by not_written hostOps0_1
    _ = W0 m ρ c (Proc.devRef .tc main_arg4) := by not_written hostOps0
    _ = _ := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = _ := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = _ := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by not_written hostOps0_2
    _ = W1 m ρ c (Proc.devRef .tc main_arg7) := by not_written hostOps0_1
    _ = W0 m ρ c (Proc.devRef .tc main_arg7) := by not_written hostOps0
    _ = _ := rfl

theorem W4_src (c : Dev nD) : W4 m ρ c (Proc.devRef .tc main_v5) = Cert.GcnSpec.srcIdx (m ((c : Thread nD τ).loc main_arg1)) :=
  (W4_of_ne m ρ c main_v5 (by decide)).trans (W3_src m ρ c)

theorem W5_src (c : Dev nD) : W5 m ρ c (Proc.devRef .tc main_v5) = Cert.GcnSpec.srcIdx (m ((c : Thread nD τ).loc main_arg1)) :=
  (by not_written hostOps1 : W5 m ρ c (Proc.devRef .tc main_v5) = W4 m ρ c (Proc.devRef .tc main_v5)).trans (W4_src m ρ c)

theorem W6_src (c : Dev nD) : W6 m ρ c (Proc.devRef .tc main_v5) = Cert.GcnSpec.srcIdx (m ((c : Thread nD τ).loc main_arg1)) :=
  (W6_of_ne m ρ c main_v5 (by decide)).trans (W5_src m ρ c)

theorem W4_dst (c : Dev nD) : W4 m ρ c (Proc.devRef .tc main_v6) = Cert.GcnSpec.dstIdx (m ((c : Thread nD τ).loc main_arg1)) :=
  (W4_of_ne m ρ c main_v6 (by decide)).trans (W3_dst m ρ c)

theorem W5_dst (c : Dev nD) : W5 m ρ c (Proc.devRef .tc main_v6) = Cert.GcnSpec.dstIdx (m ((c : Thread nD τ).loc main_arg1)) :=
  (by not_written hostOps1 : W5 m ρ c (Proc.devRef .tc main_v6) = W4 m ρ c (Proc.devRef .tc main_v6)).trans (W4_dst m ρ c)

theorem W6_dst (c : Dev nD) : W6 m ρ c (Proc.devRef .tc main_v6) = Cert.GcnSpec.dstIdx (m ((c : Thread nD τ).loc main_arg1)) :=
  (W6_of_ne m ρ c main_v6 (by decide)).trans (W5_dst m ρ c)

theorem W4_norm (c : Dev nD) : W4 m ρ c (Proc.devRef .tc main_v29) = Cert.GcnSpec.edgeNorm (m ((c : Thread nD τ).loc main_arg1)) :=
  (W4_of_ne m ρ c main_v29 (by decide)).trans (W3_norm m ρ c)

theorem W5_norm (c : Dev nD) : W5 m ρ c (Proc.devRef .tc main_v29) = Cert.GcnSpec.edgeNorm (m ((c : Thread nD τ).loc main_arg1)) :=
  (by not_written hostOps1 : W5 m ρ c (Proc.devRef .tc main_v29) = W4 m ρ c (Proc.devRef .tc main_v29)).trans (W4_norm m ρ c)

theorem W6_norm (c : Dev nD) : W6 m ρ c (Proc.devRef .tc main_v29) = Cert.GcnSpec.edgeNorm (m ((c : Thread nD τ).loc main_arg1)) :=
  (W6_of_ne m ρ c main_v29 (by decide)).trans (W5_norm m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg5 (c : Dev nD) : W4 m ρ c (Proc.devRef .tc main_arg5) = m ((c : Thread nD τ).loc main_arg5) :=
  (W4_of_ne m ρ c main_arg5 (by decide)).trans (W3_arg5 m ρ c)

theorem W4_arg6 (c : Dev nD) : W4 m ρ c (Proc.devRef .tc main_arg6) = m ((c : Thread nD τ).loc main_arg6) :=
  (W4_of_ne m ρ c main_arg6 (by decide)).trans (W3_arg6 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W5_arg4 (c : Dev nD) : W5 m ρ c (Proc.devRef .tc main_arg4) = m ((c : Thread nD τ).loc main_arg4) :=
  (by not_written hostOps1 : W5 m ρ c (Proc.devRef .tc main_arg4) = W4 m ρ c (Proc.devRef .tc main_arg4)).trans (W4_arg4 m ρ c)

theorem W5_arg5 (c : Dev nD) : W5 m ρ c (Proc.devRef .tc main_arg5) = m ((c : Thread nD τ).loc main_arg5) :=
  (by not_written hostOps1 : W5 m ρ c (Proc.devRef .tc main_arg5) = W4 m ρ c (Proc.devRef .tc main_arg5)).trans (W4_arg5 m ρ c)

theorem W5_arg6 (c : Dev nD) : W5 m ρ c (Proc.devRef .tc main_arg6) = m ((c : Thread nD τ).loc main_arg6) :=
  (by not_written hostOps1 : W5 m ρ c (Proc.devRef .tc main_arg6) = W4 m ρ c (Proc.devRef .tc main_arg6)).trans (W4_arg6 m ρ c)

theorem W5_arg7 (c : Dev nD) : W5 m ρ c (Proc.devRef .tc main_arg7) = m ((c : Thread nD τ).loc main_arg7) :=
  (by not_written hostOps1 : W5 m ρ c (Proc.devRef .tc main_arg7) = W4 m ρ c (Proc.devRef .tc main_arg7)).trans (W4_arg7 m ρ c)

theorem W6_arg5 (c : Dev nD) : W6 m ρ c (Proc.devRef .tc main_arg5) = m ((c : Thread nD τ).loc main_arg5) :=
  (W6_of_ne m ρ c main_arg5 (by decide)).trans (W5_arg5 m ρ c)

theorem W6_arg6 (c : Dev nD) : W6 m ρ c (Proc.devRef .tc main_arg6) = m ((c : Thread nD τ).loc main_arg6) :=
  (W6_of_ne m ρ c main_arg6 (by decide)).trans (W5_arg6 m ρ c)

theorem W6_arg7 (c : Dev nD) : W6 m ρ c (Proc.devRef .tc main_arg7) = m ((c : Thread nD τ).loc main_arg7) :=
  (W6_of_ne m ρ c main_arg7 (by decide)).trans (W5_arg7 m ρ c)

theorem W7_arg6 (c : Dev nD) : W7 m ρ c (Proc.devRef .tc main_arg6) = m ((c : Thread nD τ).loc main_arg6) :=
  (by not_written hostOps2 : W7 m ρ c (Proc.devRef .tc main_arg6) = W6 m ρ c (Proc.devRef .tc main_arg6)).trans (W6_arg6 m ρ c)

/-! ## After a region: the layer's aggregation of the region's result -/

set_option maxHeartbeats 4000000 in
/-- The stretch after region 0 aggregates region 0's result over the edges and adds the first bias. -/
theorem W5_aggregate (c : Dev nD) :
    W5 m ρ c (Proc.devRef .tc main_v46)
      = Cert.GcnSpec.aggregate (W4 m ρ c (Proc.devRef .tc main_v30)) (m ((c : Thread nD τ).loc main_arg1)) (m ((c : Thread nD τ).loc main_arg3)) := by
  show StableHlo.after hostOps1 (W4 m ρ c) (Proc.devRef .tc main_v46) = _
  after_results_simp
  rw [W4_src, W4_dst, W4_norm, W4_arg3]
  rfl

set_option maxHeartbeats 4000000 in
/-- The stretch after region 1 aggregates region 1's result over the same edges and adds the second bias. -/
theorem W7_aggregate (c : Dev nD) :
    W7 m ρ c (Proc.devRef .tc main_v63)
      = Cert.GcnSpec.aggregate (W6 m ρ c (Proc.devRef .tc main_v47)) (m ((c : Thread nD τ).loc main_arg1)) (m ((c : Thread nD τ).loc main_arg5)) := by
  show StableHlo.after hostOps2 (W6 m ρ c) (Proc.devRef .tc main_v63) = _
  after_results_simp
  rw [W6_src, W6_dst, W6_norm, W6_arg5]
  rfl

/-- A vector made a row by a shape cast is the vector broadcast along the second axis: both read, at `(u, j)`,
    the vector at `j`. -/
theorem row_cast_eq_broadcast {α : Type} {n : ℕ} (x : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨u, j, rfl⟩ : ∃ (u : Fin 1) (j : Fin n), i = ix2 u j := ⟨i 0, i 1, eq_ix2 i⟩
  rw [shapeCast_a_1a_apply, broadcastInDim_apply ![1] h' x (ix2 u j) (ix1 j) (fun a => by
    match a with
    | ⟨0, _⟩ =>
      show j.val = if n = 1 then 0 else j.val
      split
      · have := j.isLt; omega
      · rfl)]

/-- The last bias, reshaped to a row before region 2, is the bias broadcast along the second axis. -/
theorem W7_bias_row (c : Dev nD) :
    W7 m ρ c (Proc.devRef .tc main_v64)
      = broadcastInDim Cert.ReferenceIdeal.S1x16 ![1] Cert.ReferenceIdeal.Gen.bcast_S16_S1x16_1 (m ((c : Thread nD τ).loc main_arg7)) := by
  show StableHlo.after hostOps2 (W6 m ρ c) (Proc.devRef .tc main_v64) = _
  after_results
  rw [W6_arg7]
  exact row_cast_eq_broadcast _ _ _

end Cert.KernelIdeal.HostValue

end
-- ==== Proof.KernelRun.lean ====
/-
  The idealized kernel's run with its result named.

  @main is three kernel regions among stretches of host operations. The generated frame certificate follows the buffer
  contents through @main as a fold `W0 … W8` (a stretch applies its operations, a region replaces its arrays by what its
  write-backs leave) and shows that every execution ends with every unscoped buffer at `W8`. Its stated post keeps only
  the arguments; read at the result buffer as well, the same run says the result ends at `W8` there.
-/
import proofs.«107439_j21174188770104_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last fold's
    contents there and the argument arrays as launched. -/
theorem run_out : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.DenseBlocks.lean ====
/-
  A dense layer computed block of rows by block of rows is the dense layer of the whole array.

  Each of the three dense layers of the network is computed on a grid of 20 points. Point `t` reads rows
  `5000·t … 5000·t + 4999` of the input array (a BLOCK of 5000 rows), the whole weight matrix and, in the last
  layer, the whole `[1,16]` bias row, and writes rows `5000·t … 5000·t + 4999` of the output array. On the
  extended reals a change of float format is the identity and a matrix product accumulated into the zero splat is
  the plain sum over the contracted index, so entry `(r, n)` of what point `t` computes is
  `∑ k, f (x (r, k)) · w (k, n) (+ b (0, n))` with `x` the block, `f` the identity or the rectifier. Entry `(i, n)` of a
  product of matrices depends on row `i` of the left operand alone: with `i = 5000·t + r`, row `r` of block `t` IS
  row `i` of the whole input array, so what point `t` writes is block `t` of ONE function of the whole arrays — the
  host's `dot_general` of the (rectified) input array and the weights (plus the bias row broadcast over the rows).
  Every point writes its block back and the 20 blocks of 5000 rows cover all 100000 rows (row `i` lies in block
  `i / 5000`), so after the grid the output array is that function of the arrays the region found at its entry.

  Below: the entries of the two spellings of a product (a block's, the whole array's), with the rectifier on the left
  operand and with the bias row; then per layer the index maps decided over the grid, what a point writes back as a
  block of the whole-array function, the blocks' membership and cover, and the output array after the grid.
-/
import proofs.«107439_j21174188770104_1_alg».proof.Proof.Gen.KernelIdeal.Frame
import proofs.«107439_j21174188770104_1_alg».proof.Proof.Gen.ReferenceIdeal
import proofs.«107439_j21174188770104_1_alg».proof.Proof.LibDenseRows
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Entries of a matrix product, in the two spellings -/

section Entries

variable {R K N : ℕ}

/-- Entry `(r, n)` of a matrix product accumulated into the zero splat is the sum over the contracted index of
    the left operand's row `r` times the right operand's column `n`. -/
theorem matmul_entry {φ₁ φ₂ : FTy} (d : DotDims ⟨2, ![R, K]⟩ ⟨2, ![K, N]⟩ ⟨2, ![R, N]⟩) (hd : d = DotDims.plain R K N)
    (prec : Option ContractPrecision) (a : FVec Ideal ⟨2, ![R, K]⟩ φ₁) (w : FVec Ideal ⟨2, ![K, N]⟩ φ₂)
    (r : Fin R) (n : Fin N) :
    matmul d prec a w (constant (F := Ideal) ⟨2, ![R, N]⟩ .f32 0x00000000#32) (ix2 r n)
      = ∑ k : Fin K, a (ix2 r k) * w (ix2 k n) := by
  subst hd
  show FloatOps.matmul (DotDims.plain R K N) prec a w (constant (F := Ideal) ⟨2, ![R, N]⟩ .f32 0x00000000#32) (ix2 r n) = _
  rw [Ideal.matmul_constant_zero_apply, Cert.DenseRows.plain_contr_sum]

/-- Entry `(r, n)` of a host `dot_general` is the same sum. -/
theorem dotGeneral_entry {φ₁ φ₂ : FTy} (d : DotDims ⟨2, ![R, K]⟩ ⟨2, ![K, N]⟩ ⟨2, ![R, N]⟩) (hd : d = DotDims.plain R K N)
    (prec : Option ContractPrecision) (a : FVec Ideal ⟨2, ![R, K]⟩ φ₁) (w : FVec Ideal ⟨2, ![K, N]⟩ φ₂)
    (r : Fin R) (n : Fin N) :
    Host.dotGeneral (F := Ideal) d prec a w (ix2 r n) = ∑ k : Fin K, a (ix2 r k) * w (ix2 k n) := by
  subst hd
  show FloatOps.dotGeneral (DotDims.plain R K N) prec .single a w (ix2 r n) = _
  rw [Ideal.dotGeneral_apply, Cert.DenseRows.plain_contr_sum]

/-- The same with the left operand rectified entrywise against a splat scalar, cast to its own shape and both
    operands changed of format: the entry is the sum of the rectified row times the column. -/
theorem relu_matmul_entry (d : DotDims ⟨2, ![R, K]⟩ ⟨2, ![K, N]⟩ ⟨2, ![R, N]⟩) (hd : d = DotDims.plain R K N)
    (prec : Option ContractPrecision) (a : FVec Ideal ⟨2, ![R, K]⟩ .f32) (w : FVec Ideal ⟨2, ![K, N]⟩ .f32)
    (hc : (⟨2, ![R, K]⟩ : Shape).ShapeCasts ⟨2, ![R, K]⟩) (hlt : FTy.bf16.bits < FTy.f32.bits)
    (wd : BitVec FTy.f32.bits) (r : Fin R) (n : Fin N) :
    matmul d prec
        (truncf .bf16 (maximumf (shapeCast ⟨2, ![R, K]⟩ a hc) (broadcast ⟨2, ![R, K]⟩ (Scalar.ofBits (F := Ideal) .f32 wd))) hlt)
        (truncf .bf16 w hlt) (constant (F := Ideal) ⟨2, ![R, N]⟩ .f32 0x00000000#32) (ix2 r n)
      = ∑ k : Fin K, max (a (ix2 r k)) (Scalar.ofBits (F := Ideal) .f32 wd) * w (ix2 k n) := by
  rw [shapeCast_self]
  exact matmul_entry d hd prec _ _ r n

/-- The host's spelling of the rectifier — the maximum with a rank-zero constant broadcast in dimension — under a
    `dot_general`: the same sum. -/
theorem relu_dotGeneral_entry (d : DotDims ⟨2, ![R, K]⟩ ⟨2, ![K, N]⟩ ⟨2, ![R, N]⟩) (hd : d = DotDims.plain R K N)
    (prec : Option ContractPrecision) (a : FVec Ideal ⟨2, ![R, K]⟩ .f32) (w : FVec Ideal ⟨2, ![K, N]⟩ .f32)
    (dims : Fin (⟨0, ![]⟩ : Shape).rank → Fin (⟨2, ![R, K]⟩ : Shape).rank)
    (hb : (⟨0, ![]⟩ : Shape).BroadcastsInDim ⟨2, ![R, K]⟩ dims) (wd : BitVec FTy.f32.bits) (r : Fin R) (n : Fin N) :
    Host.dotGeneral (F := Ideal) d prec
        (maximumf a (broadcastInDim ⟨2, ![R, K]⟩ dims hb (constant (F := Ideal) ⟨0, ![]⟩ .f32 wd))) w (ix2 r n)
      = ∑ k : Fin K, max (a (ix2 r k)) (Scalar.ofBits (F := Ideal) .f32 wd) * w (ix2 k n) :=
  dotGeneral_entry d hd prec _ w r n

/-- A `[1, N]` row cast to its own shape and broadcast over `R` rows reads, at `(r, n)`, the row at `n`. -/
theorem biasRow_block_entry {α : Type} (v : (⟨2, ![1, N]⟩ : Shape).Idx → α)
    (hc : (⟨2, ![1, N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ v hc) hb (ix2 r n) = v (ix2 (0 : Fin 1) n) := by
  rw [shapeCast_self, broadcastTo_1b_ab_apply]

/-- A `[1, N]` row broadcast in dimension over `R` rows reads, at `(r, n)`, the row at `n`. -/
theorem biasRow_whole_entry {α : Type} (v : (⟨2, ![1, N]⟩ : Shape).Idx → α)
    (h : (⟨2, ![1, N]⟩ : Shape).BroadcastsInDim ⟨2, ![R, N]⟩ ![0, 1]) (r : Fin R) (n : Fin N) :
    broadcastInDim ⟨2, ![R, N]⟩ ![0, 1] h v (ix2 r n) = v (ix2 (0 : Fin 1) n) := by
  have hN : n.val = if N = 1 then 0 else n.val := by
    split
    · have := n.isLt; omega
    · rfl
  exact broadcastInDim_apply ![0, 1] h v (ix2 r n) (ix2 (0 : Fin 1) n) (fun a => by
    match a with
    | ⟨0, _⟩ => rfl
    | ⟨1, _⟩ => exact hN)

/-- The host's spelling of a whole layer — the product of the rectified array and the weights plus the bias row
    broadcast in dimension over the rows — at an entry. -/
theorem biased_relu_dotGeneral_entry (d : DotDims ⟨2, ![R, K]⟩ ⟨2, ![K, N]⟩ ⟨2, ![R, N]⟩) (hd : d = DotDims.plain R K N)
    (prec : Option ContractPrecision) (a : FVec Ideal ⟨2, ![R, K]⟩ .f32) (w : FVec Ideal ⟨2, ![K, N]⟩ .f32)
    (dims : Fin (⟨0, ![]⟩ : Shape).rank → Fin (⟨2, ![R, K]⟩ : Shape).rank)
    (hb : (⟨0, ![]⟩ : Shape).BroadcastsInDim ⟨2, ![R, K]⟩ dims) (wd : BitVec FTy.f32.bits)
    (b : FVec Ideal ⟨2, ![1, N]⟩ .f32) (h : (⟨2, ![1, N]⟩ : Shape).BroadcastsInDim ⟨2, ![R, N]⟩ ![0, 1])
    (r : Fin R) (n : Fin N) :
    addf (Host.dotGeneral (F := Ideal) d prec
          (maximumf a (broadcastInDim ⟨2, ![R, K]⟩ dims hb (constant (F := Ideal) ⟨0, ![]⟩ .f32 wd))) w)
        (broadcastInDim ⟨2, ![R, N]⟩ ![0, 1] h b) (ix2 r n)
      = (∑ k : Fin K, max (a (ix2 r k)) (Scalar.ofBits (F := Ideal) .f32 wd) * w (ix2 k n)) + b (ix2 (0 : Fin 1) n) := by
  rw [addf_apply, relu_dotGeneral_entry d hd, biasRow_whole_entry]

end Entries

/-- The zero offsets of a whole-buffer access. -/
theorem zero_offsets : (![0, 0] : Fin 2 → Nat) = fun _ => 0 := funext fun a => by fin_cases a <;> rfl

/-! ## The first layer: `[100000, 512] · [512, 128]` -/

/-- The body's payload at an entry: the product of the two loaded blocks. -/
theorem pay0_entry (x0 : Vec Ideal S5000x512 .f32) (x1 : Vec Ideal S512x128 .f32) (r : Fin 5000) (n : Fin 128) :
    k0_pay1 x0 x1 (ix2 r n) = ∑ k : Fin 512, x0 (ix2 r k) * x1 (ix2 k n) :=
  matmul_entry dot_S5000x512_S512x128_S5000x128_1_0_0_1_n_n rfl none
    (truncf .bf16 x0 bitsLt_bf16_f32) (truncf .bf16 x1 bitsLt_bf16_f32) r n

/-- The index maps, decided over the grid: at point `t` the input and the output are at row block `t`, column
    block 0; the weights at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function: the host's product of the input array and the weights as the region finds them. -/
abbrev G0 (c : Dev nD) : S100000x128.Idx → Elt Ideal .f32 :=
  Host.dotGeneral (F := Ideal) (φ₁ := .f32) (φ₂ := .f32) Cert.ReferenceIdeal.dot_S100000x512_S512x128_S100000x128_1_0_0_1_n_n none
    (V c main_arg0) (V c main_arg2)

/-- WHAT POINT `t` WRITES BACK is block `t` of `G0`: entry `(r, n)` of the product of the blocks is entry
    `(5000·t + r, n)` of the product of the arrays, since row `r` of the input's block is row `5000·t + r` of the
    input array and the weights' block is the weights. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x128) zero_offsets]
  funext j
  obtain ⟨r, n, rfl⟩ : ∃ (r : Fin 5000) (n : Fin 128), j = ix2 r n := ⟨j 0, j 1, eq_ix2 j⟩
  obtain ⟨e00, e01, e10, e11, e20, e21⟩ := idx_facts0 t
  have ht : t.val < 20 := t.isLt
  have hrow : 5000 * t.val + r.val < 100000 := by omega
  have hemb : ((cfg0.win 2).blk t).view.emb (ix2 r n) = ix2 (⟨5000 * t.val + r.val, hrow⟩ : Fin 100000) n := by
    funext a; apply Fin.ext
    match a with
    | ⟨0, _⟩ => show win0_2.index t (0 : Fin 2) * 5000 + 1 * r.val = 5000 * t.val + r.val; omega
    | ⟨1, _⟩ => show win0_2.index t (1 : Fin 2) * 128 + 1 * n.val = n.val; omega
  show k0_pay1 (iblk0 V c 0 t) (iblk0 V c 1 t) (ix2 r n) = G0 V c (((cfg0.win 2).blk t).view.emb (ix2 r n))
  rw [hemb]
  refine (pay0_entry _ _ r n).trans ?_
  refine Eq.trans ?_ (dotGeneral_entry (φ₁ := .f32) (φ₂ := .f32) Cert.ReferenceIdeal.dot_S100000x512_S512x128_S100000x128_1_0_0_1_n_n rfl none
    (V c main_arg0) (V c main_arg2) (⟨5000 * t.val + r.val, hrow⟩ : Fin 100000) n).symm
  refine Finset.sum_congr rfl fun k _ => ?_
  congr 1
  · show V c main_arg0 (((cfg0.win 0).blk t).view.emb (ix2 r k)) = V c main_arg0 (ix2 (⟨5000 * t.val + r.val, hrow⟩ : Fin 100000) k)
    congr 1
    funext a; apply Fin.ext
    match a with
    | ⟨0, _⟩ => show win0_0.index t (0 : Fin 2) * 5000 + 1 * r.val = 5000 * t.val + r.val; omega
    | ⟨1, _⟩ => show win0_0.index t (1 : Fin 2) * 512 + 1 * k.val = k.val; omega
  · show V c main_arg2 (((cfg0.win 1).blk t).view.emb (ix2 k n)) = V c main_arg2 (ix2 k n)
    congr 1
    funext a; apply Fin.ext
    match a with
    | ⟨0, _⟩ => show win0_1.index t (0 : Fin 2) * 512 + 1 * k.val = k.val; omega
    | ⟨1, _⟩ => show win0_1.index t (1 : Fin 2) * 128 + 1 * n.val = n.val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 blocks of 5000 rows cover the array: row `i` lies in block `i / 5000`, and every point writes back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, e20, e21⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE FIRST LAYER'S OUTPUT ARRAY after the grid is the host's product of the input array and the weights the
    region found. -/
theorem region0_array (c : Dev nD) : (dat0 (F := Ideal) V c).arrAt 2 cfg0.N
    = Host.dotGeneral (F := Ideal) (φ₁ := .f32) (φ₂ := .f32) Cert.ReferenceIdeal.dot_S100000x512_S512x128_S100000x128_1_0_0_1_n_n none
        (V c main_arg0) (V c main_arg2) :=
  (dat0 V c).arrAt_eq_of_cover 2 (G0 V c) (fun t _ => flushed0_eq V c t) cover0

/-! ## The second layer: the rectified `[100000, 128]` array times `[128, 128]` -/

/-- The body's payload at an entry: the rectified block's row times the weights' column. -/
theorem pay1_entry (x0 : Vec Ideal S5000x128 .f32) (x1 : Vec Ideal S128x128 .f32) (r : Fin 5000) (n : Fin 128) :
    k1_pay1 x0 x1 (ix2 r n)
      = ∑ k : Fin 128, max (x0 (ix2 r k)) (Scalar.ofBits (F := Ideal) .f32 0x00000000#32) * x1 (ix2 k n) :=
  relu_matmul_entry dot_S5000x128_S128x128_S5000x128_1_0_0_1_n_n rfl none x0 x1 shapeCasts_S5000x128_S5000x128
    bitsLt_bf16_f32 0x00000000#32 r n

/-- The index maps, decided over the grid. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array function: the host's product of the rectified input array and the weights. -/
abbrev G1 (c : Dev nD) : S100000x128.Idx → Elt Ideal .f32 :=
  Host.dotGeneral (F := Ideal) (φ₁ := .f32) (φ₂ := .f32) Cert.ReferenceIdeal.dot_S100000x128_S128x128_S100000x128_1_0_0_1_n_n none
    (maximumf (V c main_v46) (broadcastInDim Cert.ReferenceIdeal.S100000x128 ![] Cert.ReferenceIdeal.Gen.bcast_S_S100000x128
      (constant (F := Ideal) Cert.ReferenceIdeal.S_ .f32 0x00000000#32)))
    (V c main_arg4)

/-- WHAT POINT `t` WRITES BACK is block `t` of `G1`. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  funext j
  obtain ⟨r, n, rfl⟩ : ∃ (r : Fin 5000) (n : Fin 128), j = ix2 r n := ⟨j 0, j 1, eq_ix2 j⟩
  obtain ⟨e00, e01, e10, e11, e20, e21⟩ := idx_facts1 t
  have ht : t.val < 20 := t.isLt
  have hrow : 5000 * t.val + r.val < 100000 := by omega
  have hemb : ((cfg1.win 2).blk t).view.emb (ix2 r n) = ix2 (⟨5000 * t.val + r.val, hrow⟩ : Fin 100000) n := by
    funext a; apply Fin.ext
    match a with
    | ⟨0, _⟩ => show win1_2.index t (0 : Fin 2) * 5000 + 1 * r.val = 5000 * t.val + r.val; omega
    | ⟨1, _⟩ => show win1_2.index t (1 : Fin 2) * 128 + 1 * n.val = n.val; omega
  show k1_pay1 (iblk1 V c 0 t) (iblk1 V c 1 t) (ix2 r n) = G1 V c (((cfg1.win 2).blk t).view.emb (ix2 r n))
  rw [hemb]
  refine (pay1_entry _ _ r n).trans ?_
  refine Eq.trans ?_ (relu_dotGeneral_entry Cert.ReferenceIdeal.dot_S100000x128_S128x128_S100000x128_1_0_0_1_n_n rfl none
    (V c main_v46) (V c main_arg4) ![] Cert.ReferenceIdeal.Gen.bcast_S_S100000x128 0x00000000#32
    (⟨5000 * t.val + r.val, hrow⟩ : Fin 100000) n).symm
  refine Finset.sum_congr rfl fun k _ => ?_
  congr 2
  · show V c main_v46 (((cfg1.win 0).blk t).view.emb (ix2 r k)) = V c main_v46 (ix2 (⟨5000 * t.val + r.val, hrow⟩ : Fin 100000) k)
    congr 1
    funext a; apply Fin.ext
    match a with
    | ⟨0, _⟩ => show win1_0.index t (0 : Fin 2) * 5000 + 1 * r.val = 5000 * t.val + r.val; omega
    | ⟨1, _⟩ => show win1_0.index t (1 : Fin 2) * 128 + 1 * k.val = k.val; omega
  · show V c main_arg4 (((cfg1.win 1).blk t).view.emb (ix2 k n)) = V c main_arg4 (ix2 k n)
    congr 1
    funext a; apply Fin.ext
    match a with
    | ⟨0, _⟩ => show win1_1.index t (0 : Fin 2) * 128 + 1 * k.val = k.val; omega
    | ⟨1, _⟩ => show win1_1.index t (1 : Fin 2) * 128 + 1 * n.val = n.val; omega

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The 20 blocks of 5000 rows cover the array, and every point writes back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, e20, e21⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- THE SECOND LAYER'S OUTPUT ARRAY after the grid is the host's product of the rectified input array and the
    weights the region found. -/
theorem region1_array (c : Dev nD) : (dat1 (F := Ideal) V c).arrAt 2 cfg1.N
    = Host.dotGeneral (F := Ideal) (φ₁ := .f32) (φ₂ := .f32) Cert.ReferenceIdeal.dot_S100000x128_S128x128_S100000x128_1_0_0_1_n_n none
        (maximumf (V c main_v46) (broadcastInDim Cert.ReferenceIdeal.S100000x128 ![] Cert.ReferenceIdeal.Gen.bcast_S_S100000x128
          (constant (F := Ideal) Cert.ReferenceIdeal.S_ .f32 0x00000000#32)))
        (V c main_arg4) :=
  (dat1 V c).arrAt_eq_of_cover 2 (G1 V c) (fun t _ => flushed1_eq V c t) cover1

/-! ## The third layer: the rectified `[100000, 128]` array times `[128, 16]`, plus the `[1, 16]` bias row -/

/-- The body's payload at an entry: the rectified block's row times the weights' column, plus the bias row's entry. -/
theorem pay2_entry (x0 : Vec Ideal S5000x128 .f32) (x1 : Vec Ideal S128x16 .f32) (x2 : Vec Ideal S1x16 .f32)
    (r : Fin 5000) (n : Fin 16) :
    k2_pay1 x0 x1 x2 (ix2 r n)
      = (∑ k : Fin 128, max (x0 (ix2 r k)) (Scalar.ofBits (F := Ideal) .f32 0x00000000#32) * x1 (ix2 k n))
        + x2 (ix2 (0 : Fin 1) n) :=
  congrArg₂ (· + ·)
    (relu_matmul_entry dot_S5000x128_S128x16_S5000x16_1_0_0_1_n_n rfl none x0 x1 shapeCasts_S5000x128_S5000x128
      bitsLt_bf16_f32 0x00000000#32 r n)
    (biasRow_block_entry x2 shapeCasts_S1x16_S1x16 broadcasts_S1x16_S5000x16 r n)

/-- The index maps, decided over the grid: at point `t` the input and the output are at row block `t`, column
    block 0; the weights and the bias row at block `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole-array function: the host's product of the rectified input array and the weights, plus the bias row
    broadcast over the rows. -/
abbrev G2 (c : Dev nD) : S100000x16.Idx → Elt Ideal .f32 :=
  addf (Host.dotGeneral (F := Ideal) (φ₁ := .f32) (φ₂ := .f32) Cert.ReferenceIdeal.dot_S100000x128_S128x16_S100000x16_1_0_0_1_n_n none
      (maximumf (V c main_v63) (broadcastInDim Cert.ReferenceIdeal.S100000x128 ![] Cert.ReferenceIdeal.Gen.bcast_S_S100000x128
        (constant (F := Ideal) Cert.ReferenceIdeal.S_ .f32 0x00000000#32)))
      (V c main_arg6))
    (broadcastInDim Cert.ReferenceIdeal.S100000x16 ![0, 1] Cert.ReferenceIdeal.Gen.bcast_S1x16_S100000x16_0_1 (V c main_v64))

/-- WHAT POINT `t` WRITES BACK is block `t` of `G2`. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x16) zero_offsets,
    View.ld_unit_zero (S := S1x16) zero_offsets]
  funext j
  obtain ⟨r, n, rfl⟩ : ∃ (r : Fin 5000) (n : Fin 16), j = ix2 r n := ⟨j 0, j 1, eq_ix2 j⟩
  obtain ⟨e00, e01, e10, e11, e20, e21, e30, e31⟩ := idx_facts2 t
  have ht : t.val < 20 := t.isLt
  have hrow : 5000 * t.val + r.val < 100000 := by omega
  have hemb : ((cfg2.win 3).blk t).view.emb (ix2 r n) = ix2 (⟨5000 * t.val + r.val, hrow⟩ : Fin 100000) n := by
    funext a; apply Fin.ext
    match a with
    | ⟨0, _⟩ => show win2_3.index t (0 : Fin 2) * 5000 + 1 * r.val = 5000 * t.val + r.val; omega
    | ⟨1, _⟩ => show win2_3.index t (1 : Fin 2) * 16 + 1 * n.val = n.val; omega
  show k2_pay1 (iblk2 V c 0 t) (iblk2 V c 1 t) (iblk2 V c 2 t) (ix2 r n) = G2 V c (((cfg2.win 3).blk t).view.emb (ix2 r n))
  rw [hemb]
  refine (pay2_entry _ _ _ r n).trans ?_
  refine Eq.trans ?_ (biased_relu_dotGeneral_entry Cert.ReferenceIdeal.dot_S100000x128_S128x16_S100000x16_1_0_0_1_n_n rfl none
    (V c main_v63) (V c main_arg6) ![] Cert.ReferenceIdeal.Gen.bcast_S_S100000x128 0x00000000#32
    (V c main_v64) Cert.ReferenceIdeal.Gen.bcast_S1x16_S100000x16_0_1 (⟨5000 * t.val + r.val, hrow⟩ : Fin 100000) n).symm
  refine congrArg₂ (· + ·) ?_ ?_
  · refine Finset.sum_congr rfl fun k _ => ?_
    congr 2
    · show V c main_v63 (((cfg2.win 0).blk t).view.emb (ix2 r k)) = V c main_v63 (ix2 (⟨5000 * t.val + r.val, hrow⟩ : Fin 100000) k)
      congr 1
      funext a; apply Fin.ext
      match a with
      | ⟨0, _⟩ => show win2_0.index t (0 : Fin 2) * 5000 + 1 * r.val = 5000 * t.val + r.val; omega
      | ⟨1, _⟩ => show win2_0.index t (1 : Fin 2) * 128 + 1 * k.val = k.val; omega
    · show V c main_arg6 (((cfg2.win 1).blk t).view.emb (ix2 k n)) = V c main_arg6 (ix2 k n)
      congr 1
      funext a; apply Fin.ext
      match a with
      | ⟨0, _⟩ => show win2_1.index t (0 : Fin 2) * 128 + 1 * k.val = k.val; omega
      | ⟨1, _⟩ => show win2_1.index t (1 : Fin 2) * 16 + 1 * n.val = n.val; omega
  · show V c main_v64 (((cfg2.win 2).blk t).view.emb (ix2 (0 : Fin 1) n)) = V c main_v64 (ix2 (0 : Fin 1) n)
    congr 1
    funext a; apply Fin.ext
    match a with
    | ⟨0, _⟩ => show win2_2.index t (0 : Fin 2) * 1 + 1 * 0 = 0; omega
    | ⟨1, _⟩ => show win2_2.index t (1 : Fin 2) * 16 + 1 * n.val = n.val; omega

/-- An index of the output array is in point `t`'s block iff each coordinate is in the block's range on its axis. -/
theorem mem_blk2 (t : Fin cfg2.N) (i : S100000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v65).slice (win2_3.rect t)).set ↔ _
  rw [View.set_slice_whole, Rect.mem_set_unit]
  exact Iff.rfl

/-- The 20 blocks of 5000 rows cover the array, and every point writes back. -/
theorem cover2 (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, by show (i 0).val / 5000 < 20; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 16 ≤ (i 1).val ∧ (i 1).val < win2_3.index t (1 : Fin 2) * 16 + 16
    omega

/-- THE THIRD LAYER'S OUTPUT ARRAY after the grid is the host's product of the rectified input array and the
    weights, plus the bias row broadcast over the rows, of the arrays the region found. -/
theorem region2_array (c : Dev nD) : (dat2 (F := Ideal) V c).arrAt 3 cfg2.N
    = addf (Host.dotGeneral (F := Ideal) (φ₁ := .f32) (φ₂ := .f32) Cert.ReferenceIdeal.dot_S100000x128_S128x16_S100000x16_1_0_0_1_n_n none
          (maximumf (V c main_v63) (broadcastInDim Cert.ReferenceIdeal.S100000x128 ![] Cert.ReferenceIdeal.Gen.bcast_S_S100000x128
            (constant (F := Ideal) Cert.ReferenceIdeal.S_ .f32 0x00000000#32)))
          (V c main_arg6))
        (broadcastInDim Cert.ReferenceIdeal.S100000x16 ![0, 1] Cert.ReferenceIdeal.Gen.bcast_S1x16_S100000x16_0_1 (V c main_v64)) :=
  (dat2 V c).arrAt_eq_of_cover 3 (G2 V c) (fun t _ => flushed2_eq V c t) cover2

end Cert.KernelIdeal.Blocks

end
-- ==== Proof.KernelValue.lean ====
/-
  The idealized kernel's result is the network's function of the launch arrays.

  Reading the fold of buffer contents from the end: the result buffer holds what region 2 leaves, the third dense
  layer (with rectifier and bias) of the second aggregation; that aggregation is over what region 1 leaves, the second
  dense layer (with rectifier) of the first aggregation; and that one is over what region 0 leaves, the first dense
  layer of the input features. Each region's array is one whole matrix product of the arrays it enters with (its
  blocks are rows of that product), each stretch between regions is the specification's aggregation, so the
  composition is the specification's `gcn`.
-/
import proofs.«107439_j21174188770104_1_alg».proof.Proof.KernelHost
import proofs.«107439_j21174188770104_1_alg».proof.Proof.KernelRun
import proofs.«107439_j21174188770104_1_alg».proof.Proof.DenseBlocks

set_option maxRecDepth 16384

noncomputable section

namespace Cert.KernelIdeal.NetValue

open Cert.KernelIdeal Cert.KernelIdeal.Gen Cert.KernelIdeal.HostValue
open Idealize.ShloMosaic Idealize.ShloMosaic.TcCoe Idealize.SL.Sem

variable (m : (ℓ : Loc nD τ sig) → Buf (Elt Ideal) ℓ) (ρ : Dev nD → PrngReg)

/-- Region 0 leaves the first dense layer of the input features. -/
theorem layer1 (c : Dev nD) :
    W4 m ρ c (Proc.devRef .tc main_v30)
      = Host.dotGeneral (F := Ideal) (φ₁ := .f32) (φ₂ := .f32) Cert.ReferenceIdeal.dot_S100000x512_S512x128_S100000x128_1_0_0_1_n_n none
          (m ((c : Thread nD τ).loc main_arg0)) (m ((c : Thread nD τ).loc main_arg2)) := by
  have h := (W4_arr m ρ c 2).trans (Cert.KernelIdeal.Blocks.region0_array (V3 m ρ) c)
  rw [show V3 m ρ c main_arg0 = m ((c : Thread nD τ).loc main_arg0) from W3_arg0 m ρ c,
    show V3 m ρ c main_arg2 = m ((c : Thread nD τ).loc main_arg2) from W3_arg2 m ρ c] at h
  exact h

/-- Region 1 leaves the second dense layer of the rectified first aggregation. -/
theorem layer2 (c : Dev nD) :
    W6 m ρ c (Proc.devRef .tc main_v47)
      = Host.dotGeneral (F := Ideal) (φ₁ := .f32) (φ₂ := .f32) Cert.ReferenceIdeal.dot_S100000x128_S128x128_S100000x128_1_0_0_1_n_n none
          (Cert.GcnSpec.rectify (W5 m ρ c (Proc.devRef .tc main_v46))) (m ((c : Thread nD τ).loc main_arg4)) := by
  have h := (W6_arr m ρ c 2).trans (Cert.KernelIdeal.Blocks.region1_array (V5 m ρ) c)
  rw [show V5 m ρ c main_arg4 = m ((c : Thread nD τ).loc main_arg4) from W5_arg4 m ρ c] at h
  exact h

/-- Region 2 leaves the third dense layer, with its bias, of the rectified second aggregation. -/
theorem layer3 (c : Dev nD) :
    W8 m ρ c (Proc.devRef .tc main_v65)
      = addf (Host.dotGeneral (F := Ideal) (φ₁ := .f32) (φ₂ := .f32) Cert.ReferenceIdeal.dot_S100000x128_S128x16_S100000x16_1_0_0_1_n_n none
          (Cert.GcnSpec.rectify (W7 m ρ c (Proc.devRef .tc main_v63))) (m ((c : Thread nD τ).loc main_arg6)))
          (broadcastInDim Cert.ReferenceIdeal.S100000x16 ![0, 1] Cert.ReferenceIdeal.Gen.bcast_S1x16_S100000x16_0_1
            (broadcastInDim Cert.ReferenceIdeal.S1x16 ![1] Cert.ReferenceIdeal.Gen.bcast_S16_S1x16_1 (m ((c : Thread nD τ).loc main_arg7)))) := by
  have h := (W8_arr m ρ c 3).trans (Cert.KernelIdeal.Blocks.region2_array (V7 m ρ) c)
  rw [show V7 m ρ c main_arg6 = m ((c : Thread nD τ).loc main_arg6) from W7_arg6 m ρ c,
    show V7 m ρ c main_v64 = _ from W7_bias_row m ρ c] at h
  exact h

/-- The result buffer ends at the network's function of the launch arrays. -/
theorem result_is_gcn (c : Dev nD) :
    W8 m ρ c (Proc.devRef .tc main_v65) = Cert.GcnSpec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [layer3, W7_aggregate, layer2, W5_aggregate, layer1]
  rfl

/-- Every weakly fair execution of the idealized kernel terminates with the result at the network's function of the
    launch arrays, the arguments unchanged. -/
theorem run : θ_run defs (onTc (τ := τ) (main (F := Ideal))) ⟨m, fun _ => 0, ρ⟩ (fun r => ∀ c : Dev nD,
      r.2.mem ((c.tc : Thread nD τ).loc main_v65) = Cert.GcnSpec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_is_gcn m ρ c), (h c).2⟩)
    (Cert.KernelIdeal.RunValue.run_out m ρ)

end Cert.KernelIdeal.NetValue

end
-- ==== Proof.RefValue.lean ====
/-
  The idealized reference's run, with its result read as the network's function of the arguments.

  The reference program is a straight line of host operations; its run ends with the result buffer at the
  operations' composed term of the launch arrays. That term is the specification's `gcn` of the eight arrays:
  the specification spells each of its functions with the same host operations, and the reference computes the
  index vectors, the degrees and the edge weights once per layer, from the same edge array, so both of its copies
  are the specification's one.
-/
import proofs.«107439_j21174188770104_1_alg».proof.Proof.RunPatched
import proofs.«107439_j21174188770104_1_alg».proof.Proof.GcnSpec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The run's composed term is the network's function of the launch arrays. -/
theorem res_is_gcn (m : (ℓ : Loc nD τ sig) → Buf (Elt F) ℓ) (c : Dev nD) :
    Cert.ReferenceIdeal.ValueP.res_main_v99 m c
      = Cert.GcnSpec.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v99 Cert.GcnSpec.gcn Cert.GcnSpec.rectify Cert.GcnSpec.aggregate
    Cert.GcnSpec.edgeNorm Cert.GcnSpec.invSqrtDegree Cert.GcnSpec.degree Cert.GcnSpec.wrap Cert.GcnSpec.srcIdx Cert.GcnSpec.dstIdx
  rfl

/-- Every weakly fair execution of the reference terminates with the result at the network's function of the
    launch arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99)
        = Cert.GcnSpec.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_is_gcn m c), (h c).2⟩)
    (Cert.ReferenceIdeal.ValueP.run m ρ)

end Cert.ReferenceIdeal.RefValue

end
-- ==== Proof.lean ====
/-
  A graph convolution network of three layers against its plain reference, on the extended reals.

  Both programs compute, from node features `x`, an edge list and three weight matrices with their biases,
  `relu (A (relu (A (x · W₁) + b₁) · W₂) + b₂) · Wₒ + bₒ`, where `A` sums over the edges into a node the source's row
  weighted by `deg^(-1/2)` of both ends. The kernel computes the edge data once and runs each of the three matrix
  products as a kernel tiled over blocks of 5000 rows, with operands narrowed to bf16; the reference recomputes the edge
  data per layer and uses whole matrix products. On the extended reals a change of float format is the identity and
  a row of a matrix product depends on the same row of the left operand only, so each tiled product is the whole
  product, and the host operations between the products are the same on both sides: both results are the
  specification's `gcn` of the arguments (`Cert.GcnSpec`). No finiteness of the inputs is used.

  The three frames: the two kernel programs' are the generated frame certificates; the reference's is its run with
  the result dropped. The idealization rewrote no operation, so `preserves` is `True`.
-/
import proofs.«107439_j21174188770104_1_alg».proof.Defs
import proofs.«107439_j21174188770104_1_alg».proof.Proof.Gen.Kernel
import proofs.«107439_j21174188770104_1_alg».proof.Proof.Gen.Kernel.Skeleton
import proofs.«107439_j21174188770104_1_alg».proof.Proof.Gen.Kernel.Launch
import proofs.«107439_j21174188770104_1_alg».proof.Proof.Gen.Kernel.Points
import proofs.«107439_j21174188770104_1_alg».proof.Proof.Gen.Kernel.Frame
import proofs.«107439_j21174188770104_1_alg».proof.Proof.Gen.KernelIdeal
import proofs.«107439_j21174188770104_1_alg».proof.Proof.Gen.KernelIdeal.Skeleton
import proofs.«107439_j21174188770104_1_alg».proof.Proof.Gen.KernelIdeal.Launch
import proofs.«107439_j21174188770104_1_alg».proof.Proof.Gen.KernelIdeal.Points
import proofs.«107439_j21174188770104_1_alg».proof.Proof.Gen.KernelIdeal.Frame
import proofs.«107439_j21174188770104_1_alg».proof.Proof.Gen.ReferenceIdeal
import proofs.«107439_j21174188770104_1_alg».proof.Proof.Gen.Pre_finite_inputs
import proofs.«107439_j21174188770104_1_alg».proof.Proof.KernelValue
import proofs.«107439_j21174188770104_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories agreeing on the arguments both idealized programs end with the result at the network's function
    of those arguments. -/
theorem algebraic : Cert.algebraic_KernelIdeal_ReferenceIdeal := by
  intro m ρ m' ρ' _ hagree
  refine ⟨fun c => Cert.GcnSpec.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.NetValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
